-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000 : Shape := ⟨1, ![2000000]⟩
abbrev S100000x32 : Shape := ⟨2, ![100000, 32]⟩
abbrev S200000x32 : Shape := ⟨2, ![200000, 32]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S200000x32 : S_.BroadcastsInDim S200000x32 (![] : Fin 0 → Fin S200000x32.rank)
  reducesTo_S200000x32_S_d0_1 : S200000x32.ReducesTo [0, 1] S_

variable [Facts]

def fn {F : FTy → Type} [FloatOps F] (main_arg0 : IVec S2000000 32) (main_arg1 : IVec S2000000 32) (main_arg2 : FVec F S2000000 .f32) (main_arg3 : FVec F S100000x32 .f32) (main_arg4 : FVec F S200000x32 .f32) : IVec S_ 1 :=
  let main_v0 : FVec F S2000000 .f32 := Host.absf main_arg2
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S100000x32 .f32 := Host.absf main_arg3
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S200000x32 .f32 := Host.absf main_arg4
  let main_cst_2 : FVec F S_ .f32 := constant S_ .f32 0x7F800000#32
  let main_v10 : FVec F S200000x32 .f32 := broadcastInDim S200000x32 ![] bcast_S_S200000x32 main_cst_2
  let main_v11 : IVec S200000x32 1 := cmpf .olt main_v9 main_v10
  let main_c_3 : IVec S_ 1 := constantI S_ 1 1#1
  let main_v12 : IVec S_ 1 := (fun x v => Host.reduce IntOp.andi x v reducesTo_S200000x32_S_d0_1 h_S_) main_v11 main_c_3
  let main_v13 : IVec S_ 1 := andi main_v8 main_v12
  main_v13
-- ==== Kernel.lean ====
abbrev S2000000 : Shape := ⟨1, ![2000000]⟩
abbrev S100000x32 : Shape := ⟨2, ![100000, 32]⟩
abbrev S200000x32 : Shape := ⟨2, ![200000, 32]⟩
abbrev S_ : Shape := ⟨0, ![]⟩
abbrev S2000000x1 : Shape := ⟨2, ![2000000, 1]⟩
abbrev S2000000x32 : Shape := ⟨2, ![2000000, 32]⟩
abbrev S1x1 : Shape := ⟨2, ![1, 1]⟩
abbrev S10000x1 : Shape := ⟨2, ![10000, 1]⟩
abbrev S10000x32 : Shape := ⟨2, ![10000, 32]⟩
abbrev S10000 : Shape := ⟨1, ![10000]⟩
abbrev S1 : Shape := ⟨1, ![1]⟩

abbrev nBuf : Space → Nat
  | .hbm => 38
  | .vmem => 9
  | .smem => 0
  | _ => 0

abbrev bufTy : (tb : Table) → Fin (tcTables nBuf tb) → BufTy
  | .hbm, ⟨0, _⟩ => ⟨S2000000, .i32⟩
  | .hbm, ⟨1, _⟩ => ⟨S2000000, .i32⟩
  | .hbm, ⟨2, _⟩ => ⟨S2000000, .f32⟩
  | .hbm, ⟨3, _⟩ => ⟨S100000x32, .f32⟩
  | .hbm, ⟨4, _⟩ => ⟨S200000x32, .f32⟩
  | .hbm, ⟨5, _⟩ => ⟨S_, .i32⟩
  | .hbm, ⟨6, _⟩ => ⟨S2000000, .i32⟩
  | .hbm, ⟨7, _⟩ => ⟨S2000000, .i1⟩
  | .hbm, ⟨8, _⟩ => ⟨S_, .i32⟩
  | .hbm, ⟨9, _⟩ => ⟨S2000000, .i32⟩
  | .hbm, ⟨10, _⟩ => ⟨S2000000, .i32⟩
  | .hbm, ⟨11, _⟩ => ⟨S2000000, .i32⟩
  | .hbm, ⟨12, _⟩ => ⟨S2000000x1, .i32⟩
  | .hbm, ⟨13, _⟩ => ⟨S2000000x32, .f32⟩
  | .hbm, ⟨14, _⟩ => ⟨S_, .i32⟩
  | .hbm, ⟨15, _⟩ => ⟨S2000000, .i32⟩
  | .hbm, ⟨16, _⟩ => ⟨S2000000, .i1⟩
  | .hbm, ⟨17, _⟩ => ⟨S_, .i32⟩
  | .hbm, ⟨18, _⟩ => ⟨S2000000, .i32⟩
  | .hbm, ⟨19, _⟩ => ⟨S2000000, .i32⟩
  | .hbm, ⟨20, _⟩ => ⟨S2000000, .i32⟩
  | .hbm, ⟨21, _⟩ => ⟨S2000000x1, .i32⟩
  | .hbm, ⟨22, _⟩ => ⟨S2000000x32, .f32⟩
  | .hbm, ⟨23, _⟩ => ⟨S2000000x1, .f32⟩
  | .hbm, ⟨24, _⟩ => ⟨S1x1, .f32⟩
  | .hbm, ⟨25, _⟩ => ⟨S1x1, .f32⟩
  | .hbm, ⟨26, _⟩ => ⟨S1x1, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S10000x1, .f32⟩
  | .local _ .vmem, ⟨1, _⟩ => ⟨S10000x1, .f32⟩
  | .local _ .vmem, ⟨2, _⟩ => ⟨S10000x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | _, _ => ⟨S2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S2000000_S2000000x1 : S2000000.ShapeCasts S2000000x1
  inb_S1x1_S1x1_0_0 : ∀ a, (![0, 0] : Fin 2 → Nat) a + S1x1.size a ≤ S1x1.size a
  h_S1x1 : 0 < S1x1.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  reduces_S10000x32_S10000 : S10000x32.Reduces [1] S10000
  shapeCasts_S10000_S10000x1 : S10000.ShapeCasts S10000x1
  reduces_S10000x1_S1 : S10000x1.Reduces [0] S1
  shapeCasts_S1_S1x1 : S1.ShapeCasts S1x1
  shapeCasts_S1x1_S1x1 : S1x1.ShapeCasts S1x1
  shapeCasts_S1x1_S_ : S1x1.ShapeCasts S_
  gather_S100000x32_S2000000x1_S2000000x32_1_0_n_n_0_1_132_wf : GatherDims.WF S100000x32 S2000000x1 S2000000x32 [1] [0] [] [0] [] 1 ![1, 32]
  gather_S200000x32_S2000000x1_S2000000x32_1_0_n_n_0_1_132_wf : GatherDims.WF S200000x32 S2000000x1 S2000000x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S2000000x1.size a
  hwx0_0 : ∀ i : grid0.Coords, EltTy.bits .f32 = 32 ∨ (Rect.block (s := S2000000x1) S10000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S2000000x32.size a
  hwx0_1 : ∀ i : grid0.Coords, EltTy.bits .f32 = 32 ∨ (Rect.block (s := S2000000x32) S10000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S2000000x32.size a
  hwx0_2 : ∀ i : grid0.Coords, EltTy.bits .f32 = 32 ∨ (Rect.block (s := S2000000x32) S10000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def gather_S200000x32_S2000000x1_S2000000x32_1_0_n_n_0_1_132 : GatherDims S200000x32 S2000000x1 S2000000x32 where
  offsetDims := [1]
  collapsedSliceDims := [0]
  operandBatchingDims := []
  startIndicesBatchingDims := []
  startIndexMap := [0]
  indexVectorDim := 1
  sliceSizes := ![1, 32]
  wf := gather_S200000x32_S2000000x1_S2000000x32_1_0_n_n_0_1_132_wf

abbrev win0_0 : Pipeline.Window sig grid0 :=
  Pipeline.Window.ofSpec (Memref.whole main_v14) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_2) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2000000 : Shape := ⟨1, ![2000000]⟩
abbrev S100000x32 : Shape := ⟨2, ![100000, 32]⟩
abbrev S200000x32 : Shape := ⟨2, ![200000, 32]⟩
abbrev S_ : Shape := ⟨0, ![]⟩
abbrev S2000000x1 : Shape := ⟨2, ![2000000, 1]⟩
abbrev S2000000x32 : Shape := ⟨2, ![2000000, 32]⟩

abbrev nBuf : Space → Nat
  | .hbm => 58
  | .vmem => 0
  | .smem => 0
  | _ => 0

abbrev bufTy : (tb : Table) → Fin (tcTables nBuf tb) → BufTy
  | .hbm, ⟨0, _⟩ => ⟨S2000000, .i32⟩
  | .hbm, ⟨1, _⟩ => ⟨S2000000, .i32⟩
  | .hbm, ⟨2, _⟩ => ⟨S2000000, .f32⟩
  | .hbm, ⟨3, _⟩ => ⟨S100000x32, .f32⟩
  | .hbm, ⟨4, _⟩ => ⟨S200000x32, .f32⟩
  | .hbm, ⟨5, _⟩ => ⟨S_, .i32⟩
  | .hbm, ⟨6, _⟩ => ⟨S2000000, .i32⟩
  | .hbm, ⟨7, _⟩ => ⟨S2000000, .i1⟩
  | .hbm, ⟨8, _⟩ => ⟨S_, .i32⟩
  | .hbm, ⟨9, _⟩ => ⟨S2000000, .i32⟩
  | .hbm, ⟨10, _⟩ => ⟨S2000000, .i32⟩
  | .hbm, ⟨11, _⟩ => ⟨S2000000, .i32⟩
  | .hbm, ⟨12, _⟩ => ⟨S2000000x1, .i32⟩
  | .hbm, ⟨13, _⟩ => ⟨S2000000x32, .f32⟩
  | .hbm, ⟨14, _⟩ => ⟨S_, .i32⟩
  | .hbm, ⟨15, _⟩ => ⟨S2000000, .i32⟩
  | .hbm, ⟨16, _⟩ => ⟨S2000000, .i1⟩
  | .hbm, ⟨17, _⟩ => ⟨S_, .i32⟩
  | .hbm, ⟨18, _⟩ => ⟨S2000000, .i32⟩
  | .hbm, ⟨19, _⟩ => ⟨S2000000, .i32⟩
  | .hbm, ⟨20, _⟩ => ⟨S2000000, .i32⟩
  | .hbm, ⟨21, _⟩ => ⟨S2000000x1, .i32⟩
  | .hbm, ⟨22, _⟩ => ⟨S2000000x32, .f32⟩
  | .hbm, ⟨23, _⟩ => ⟨S2000000x32, .f32⟩
  | .hbm, ⟨24, _⟩ => ⟨S_, .f32⟩
  | .hbm, ⟨25, _⟩ => ⟨S2000000, .f32⟩
  | .hbm, ⟨26, _⟩ => ⟨S_, .f32⟩
  | .hbm, ⟨27, _⟩ => ⟨S2000000, .f32⟩
  | .hbm, ⟨28, _⟩ => ⟨S2000000, .f32⟩
  | .hbm, ⟨29, _⟩ => ⟨S2000000, .f32⟩
  | .hbm, ⟨30, _⟩ => ⟨S2000000, .f32⟩
  | .hbm, ⟨31, _⟩ => ⟨S2000000, .i1⟩
  | .hbm, ⟨32, _⟩ => ⟨S2000000, .f32⟩
  | .hbm, ⟨33, _⟩ => ⟨S2000000, .f32⟩
  | .hbm, ⟨34, _⟩ => ⟨S2000000, .f32⟩
  | .hbm, ⟨35, _⟩ => ⟨S2000000, .f32⟩
  | .hbm, ⟨36, _⟩ => ⟨S2000000, .f32⟩
  | .hbm, ⟨37, _⟩ => ⟨S2000000, .f32⟩
  | .hbm, ⟨38, _⟩ => ⟨S2000000, .f32⟩
  | .hbm, ⟨39, _⟩ => ⟨S2000000, .f32⟩
  | .hbm, ⟨40, _⟩ => ⟨S2000000, .f32⟩
  | .hbm, ⟨41, _⟩ => ⟨S2000000, .f32⟩
  | .hbm, ⟨42, _⟩ => ⟨S_, .f32⟩
  | .hbm, ⟨43, _⟩ => ⟨S_, .f32⟩
  | .hbm, ⟨44, _⟩ => ⟨S2000000x32, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S2000000x32, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  reducesTo_S2000000x32_S2000000_d1 : S2000000x32.ReducesTo [1] S2000000
  h_S_ : 0 < S_.numel
  reducesTo_S2000000_S_d0 : S2000000.ReducesTo [0] S_
  reducesTo_S2000000x32_S_d0_1 : S2000000x32.ReducesTo [0, 1] S_
  gather_S100000x32_S2000000x1_S2000000x32_1_0_n_n_0_1_132_wf : GatherDims.WF S100000x32 S2000000x1 S2000000x32 [1] [0] [] [0] [] 1 ![1, 32]
  gather_S200000x32_S2000000x1_S2000000x32_1_0_n_n_0_1_132_wf : GatherDims.WF S200000x32 S2000000x1 S2000000x32 [1] [0] [] [0] [] 1 ![1, 32]

variable [Facts₀]

def gather_S100000x32_S2000000x1_S2000000x32_1_0_n_n_0_1_132 : GatherDims S100000x32 S2000000x1 S2000000x32 where
  offsetDims := [1]
  collapsedSliceDims := [0]
  operandBatchingDims := []
  startIndicesBatchingDims := []
  startIndexMap := [0]
  indexVectorDim := 1
  sliceSizes := ![1, 32]
  wf := gather_S100000x32_S2000000x1_S2000000x32_1_0_n_n_0_1_132_wf
def gather_S200000x32_S2000000x1_S2000000x32_1_0_n_n_0_1_132 : GatherDims S200000x32 S2000000x1 S2000000x32 where
  offsetDims := [1]
  collapsedSliceDims := [0]
  operandBatchingDims := []
  startIndicesBatchingDims := []
  startIndexMap := [0]
  indexVectorDim := 1
  sliceSizes := ![1, 32]
  wf := gather_S200000x32_S2000000x1_S2000000x32_1_0_n_n_0_1_132_wf

class Facts : Prop extends Facts₀ where

variable [Facts]
-- ==== Proof.LibBlockSumN.lean ====
/-
  A sum over `b · n` indices, taken in `b` blocks of `n`.

  In any additive commutative monoid, a sum over the indices `0 … b·n − 1` is the sum over the blocks
  `t = 0 … b − 1` of the sums over the positions `j = 0 … n − 1` inside the block, the index being `t · n + j`:
  the map `(t, j) ↦ t · n + j` is a bijection from pairs to indices, and a sum over pairs is an iterated sum.
  Nothing here needs the summands to be finite, so it holds for extended reals: it is the law that joins a
  contraction accumulated block by block with the whole contraction.
-/
import Idealize.ShloMosaic.Lib.ValueIdx

namespace Cert.BlockSumN

open scoped BigOperators

/-- Position `j` of block `t` is an index below `b · n`. -/
theorem blk_lt {b n : Nat} (t : Fin b) (j : Fin n) : t.val * n + j.val < b * n := by
  have h1 : t.val * n + n ≤ b * n := by
    have : (t.val + 1) * n ≤ b * n := Nat.mul_le_mul_right n t.isLt
    simpa [Nat.succ_mul] using this
  have := j.isLt
  omega

/-- A sum over `b · n` indices is the sum over the `b` blocks of the sums over the `n` positions in a block. -/
theorem sum_blocks {α : Type} [AddCommMonoid α] (b n : Nat) (f : Fin (b * n) → α) :
    ∑ k : Fin (b * n), f k = ∑ t : Fin b, ∑ j : Fin n, f ⟨t.val * n + j.val, blk_lt t j⟩ := by
  rw [← Equiv.sum_comp finProdFinEquiv f, Fintype.sum_prod_type]
  refine Finset.sum_congr rfl fun t _ => Finset.sum_congr rfl fun j _ => ?_
  congr 1
  apply Fin.ext
  show j.val + n * t.val = t.val * n + j.val
  rw [Nat.mul_comm, Nat.add_comm]

/-- The same over `Fin K` with `K = b · n` given as an equation (for a literal `K`). -/
theorem sum_blocks_of_eq {α : Type} [AddCommMonoid α] {K : Nat} (b n : Nat) (hK : K = b * n) (f : Fin K → α) :
    ∑ k : Fin K, f k = ∑ t : Fin b, ∑ j : Fin n, f ⟨t.val * n + j.val, hK ▸ blk_lt t j⟩ := by
  subst hK
  exact sum_blocks b n f

end Cert.BlockSumN
-- ==== Proof.Spec.lean ====
/-
  The loss both programs compute, as one function of the gathered embeddings and the labels.

  For N = 2 000 000 interactions with D = 32 coordinates each, let U and V be the [N, D] arrays of gathered user and
  item embeddings and y the length-N vector of labels. With the logit of interaction n the dot product
  L n = ∑ d, U (n, d) · V (n, d), the loss is

      ∑ n, ( max 0 (L n) + log (1 + exp (−|L n|)) − L n · y n )  +  c · √(∑ n d, U (n, d)²)  +  c · √(∑ n d, V (n, d)²),

  the numerically stable form of the summed binary cross-entropy with logits plus two Frobenius-norm penalties
  (c the single-precision word nearest 0.1, the same word in both programs). Everything is over the extended reals,
  where addition is commutative and associative with no exception, so the sums may be taken in any grouping:
  in particular in 200 blocks of 10 000 consecutive interactions, each block first summed by itself and the block sums
  then added one after the other onto zero.
-/
import Idealize.ShloMosaic.PureOps.Ideal
import Idealize.ShloMosaic.PureOps.Ideal.Laws
import Idealize.ShloMosaic.Lib.ValueIdx
import proofs.«137435_j7301444403233_2_alg».proof.Proof.LibBlockSumN

noncomputable section

namespace Cert.Loss

open Idealize.ShloMosaic Idealize.ShloMosaic.ValueIdx
open scoped BigOperators

/-- The cross-entropy term of one interaction from its logit L and its label y: max 0 L + log (1 + exp (−|L|)) − L · y,
    with |L| written max (−L) L. -/
def term (L y : EReal) : EReal :=
  max 0 L + Ideal.log1p (Ideal.exp (-(max (-L) L))) - L * y

/-- A number compared with itself for "different" answers no, so a selection on that answer takes its second value. -/
theorem select_ne_self {α : Type} (p : CmpFPredicate) (hp : p = .one ∨ p = .une) (a : EReal) (x y : α) :
    Scalar.select (Ideal.cmp p a a) x y = y := by
  have h : Ideal.cmp p a a = 0#1 := by
    rcases hp with rfl | rfl <;> simp [Ideal.cmp]
  rw [h]; exact select_zero x y

/-- The penalty weight: the single-precision word 0x3DCCCCCD (nearest 0.1) as an extended real. -/
abbrev weight : EReal := Ideal.ofBits .f32 0x3DCCCCCD#32

/-- The logit of interaction n: the dot product of its two embedding rows. -/
def logit (U V : (⟨2, ![2000000, 32]⟩ : Shape).Idx → EReal) (n : Fin 2000000) : EReal :=
  ∑ d : Fin 32, U (ix2 n d) * V (ix2 n d)

/-- The summed cross-entropy over all interactions. -/
def bce (U V : (⟨2, ![2000000, 32]⟩ : Shape).Idx → EReal) (y : (⟨1, ![2000000]⟩ : Shape).Idx → EReal) : EReal :=
  ∑ n : Fin 2000000, term (logit U V n) (y (ix1 n))

/-- The sum of the squares of every entry of an [N, D] array. -/
def sq (U : (⟨2, ![2000000, 32]⟩ : Shape).Idx → EReal) : EReal :=
  ∑ n : Fin 2000000, ∑ d : Fin 32, U (ix2 n d) * U (ix2 n d)

/-- The loss. -/
def loss (U V : (⟨2, ![2000000, 32]⟩ : Shape).Idx → EReal) (y : (⟨1, ![2000000]⟩ : Shape).Idx → EReal) : EReal :=
  bce U V y + weight * Ideal.sqrt (sq U) + weight * Ideal.sqrt (sq V)

/-- Row r of block t is interaction 10000 · t + r. -/
def row (t : Fin 200) (r : Fin 10000) : Fin 2000000 :=
  ⟨t.val * 10000 + r.val, Cert.BlockSumN.blk_lt (b := 200) (n := 10000) t r⟩

/-- A sum over all interactions is the sum over the 200 blocks of the sums over the 10 000 rows of a block. -/
theorem sum_rows {α : Type} [AddCommMonoid α] (f : Fin 2000000 → α) :
    ∑ n : Fin 2000000, f n = ∑ t : Fin 200, ∑ r : Fin 10000, f (row t r) :=
  Cert.BlockSumN.sum_blocks_of_eq (K := 2000000) 200 10000 (by norm_num) f

/-- Adding the block sums one after the other onto zero gives the sum over the blocks: the running total after
    block n is the sum of the block sums up to n. -/
def running {α : Type} [AddCommMonoid α] (p : Nat → α) : Nat → α
  | 0 => 0 + p 0
  | n + 1 => running p n + p (n + 1)

theorem running_eq {α : Type} [AddCommMonoid α] (p : Nat → α) (n : Nat) :
    running p n = ∑ s ∈ Finset.range (n + 1), p s := by
  induction n with
  | zero => simp [running]
  | succ n ih => rw [running, ih, Finset.sum_range_succ (fun s => p s) (n + 1)]

/-- The running total after the last of the 200 blocks is the sum over the blocks. -/
theorem running_last {α : Type} [AddCommMonoid α] (p : Nat → α) :
    running p 199 = ∑ t : Fin 200, p t.val := by
  rw [running_eq, Finset.sum_range]

end Cert.Loss

end
-- ==== Proof.LibSumIdx1.lean ====
/-
  A rank-1 index is its one coordinate: a sum over every index of a vector of length n is the sum over the coordinate
  a : Fin n of the entry at that coordinate (the rank-1 companion of the library's rank-2 double sum). What a sum of a vector
  over its only axis into a scalar needs, once the sum is read as a sum over all indices.
-/
import Idealize.ShloMosaic.Lib.ValueIdx

namespace Cert.LibSumIdx1

open Idealize.ShloMosaic Idealize.ShloMosaic.ValueIdx

/-- A sum over the indices of a length-n vector is the sum over the coordinate, in any additive commutative monoid. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    (fun i => congrArg f (eq_ix1 i))

end Cert.LibSumIdx1
-- ==== Proof.RefLoss.lean ====
/-
  The reference computes the loss.

  The reference forms the [N, D] product of the two gathered arrays, sums it along D into the N logits, applies the
  stable cross-entropy expression entry by entry (its branch for an undefined difference is never taken over the
  extended reals, where every comparison of a number with itself says "equal"), sums the N terms, and adds the two
  weighted square roots of the sums of squares over all N · D entries. Read index by index, with each zero initial
  value the extended real 0 and therefore dropped, that is the loss of the gathered arrays and the labels.
  The two gathers are left as they are: the kernel's program performs the very same two operations.
-/
import proofs.«137435_j7301444403233_2_alg».proof.Proof.Gen.ReferenceIdeal.Read
import proofs.«137435_j7301444403233_2_alg».proof.Proof.Spec
import proofs.«137435_j7301444403233_2_alg».proof.Proof.LibSumIdx1

noncomputable section

namespace Cert.Loss.Ref

open Idealize.ShloMosaic Idealize.ShloMosaic.ValueIdx
open Cert.ReferenceIdeal Cert.ReferenceIdeal.Read Cert.Loss
open scoped BigOperators

variable (x0 x1 : (⟨S2000000, .i32⟩ : BufTy).Contents (Elt Ideal)) (x2 : (⟨S2000000, .f32⟩ : BufTy).Contents (Elt Ideal))
  (x3 : (⟨S100000x32, .f32⟩ : BufTy).Contents (Elt Ideal)) (x4 : (⟨S200000x32, .f32⟩ : BufTy).Contents (Elt Ideal))

/-- The reference's sum along D at interaction n is the logit. -/
theorem logit_eq (n : Fin 2000000) :
    val_main_v15 (F := Ideal) x0 x1 x3 x4 (ix1 n) = logit (val_main_v6 (F := Ideal) x0 x3) (val_main_v13 (F := Ideal) x1 x4) n := by
  rw [val_main_v15_apply]
  have hi : ∀ k : Fin 32, idx_main_v15 (ix1 n) k = ix2 n k := fun k => funext fun a => Fin.ext (by
    match a with | ⟨0, _⟩ => rfl | ⟨1, _⟩ => rfl)
  simp only [hi, val_main_v14_apply, val_main_cst_apply, Ideal.ofBits_def, Ideal.ofBits_zero_f32, zero_add, Ideal.mulf_def]
  rfl

/-- The reference's entry-by-entry expression at interaction n is the cross-entropy term of the logit and the label. -/
theorem term_eq (n : Fin 2000000) :
    val_main_v30 (F := Ideal) x0 x1 x2 x3 x4 (ix1 n)
      = term (logit (val_main_v6 (F := Ideal) x0 x3) (val_main_v13 (F := Ideal) x1 x4) n) (x2 (ix1 n)) := by
  rw [val_main_v30_apply, val_main_v28_apply, val_main_v20_apply, val_main_v27_apply, val_main_v17_apply, val_main_v26_apply,
    val_main_v25_apply, val_main_v24_apply, val_main_v23_apply, val_main_v19_apply, val_main_v18_apply, val_main_v16_apply,
    val_main_v29_apply, val_main_cst_3_apply, logit_eq]
  simp only [Ideal.cmpf_def, select_ne_self _ (Or.inr rfl), Ideal.ofBits_def, Ideal.ofBits_zero_f32, Ideal.subf_def,
    Ideal.addf_def, Ideal.mulf_def, Ideal.maximumf_def, Ideal.hostAbsf_def, Ideal.hostNegf_def, Ideal.negf_def, Ideal.absf_def,
    Ideal.hostUnary_exp_def, Ideal.hostUnary_log1p_def, zero_sub, neg_neg]
  rfl

/-- The reference's sum of the N terms is the summed cross-entropy. -/
theorem bce_eq (i : S_.Idx) :
    val_main_v31 (F := Ideal) x0 x1 x2 x3 x4 i = bce (val_main_v6 (F := Ideal) x0 x3) (val_main_v13 (F := Ideal) x1 x4) x2 := by
  rw [val_main_v31_apply, Cert.LibSumIdx1.sum_idx1]
  simp only [term_eq, val_main_cst_4_apply, Ideal.ofBits_def, Ideal.ofBits_zero_f32, zero_add]
  rfl

/-- The reference's sum of the squared user rows over every entry is the sum of squares. -/
theorem squ_eq (i : S_.Idx) :
    val_main_v33 (F := Ideal) x0 x3 i = sq (val_main_v6 (F := Ideal) x0 x3) := by
  rw [val_main_v33_apply, sum_idx2]
  simp only [val_main_v32_apply, val_main_cst_5_apply, Ideal.ofBits_def, Ideal.ofBits_zero_f32, zero_add, Ideal.mulf_def]
  rfl

/-- The same for the item rows. -/
theorem sqv_eq (i : S_.Idx) :
    val_main_v37 (F := Ideal) x1 x4 i = sq (val_main_v13 (F := Ideal) x1 x4) := by
  rw [val_main_v37_apply, sum_idx2]
  simp only [val_main_v36_apply, val_main_cst_7_apply, Ideal.ofBits_def, Ideal.ofBits_zero_f32, zero_add, Ideal.mulf_def]
  rfl

/-- The reference's result is the loss of the gathered arrays and the labels. -/
theorem result_eq (i : S_.Idx) :
    val_main_v41 (F := Ideal) x0 x1 x2 x3 x4 i
      = loss (val_main_v6 (F := Ideal) x0 x3) (val_main_v13 (F := Ideal) x1 x4) x2 := by
  rw [val_main_v41_apply, val_main_v40_apply, val_main_v39_apply, val_main_v38_apply, val_main_v35_apply, val_main_v34_apply,
    bce_eq, squ_eq, sqv_eq, val_main_cst_6_apply, val_main_cst_8_apply]
  simp only [Ideal.addf_def, Ideal.mulf_def, Ideal.hostUnary_sqrt_def, Ideal.ofBits_def]
  rfl

end Cert.Loss.Ref

end
-- ==== Proof.Steps.lean ====
/-
  What one grid step leaves in the three one-entry accumulators.

  At the first step the body stores zero in each accumulator, reads it back and stores the read value plus the step's
  partial; at every later step it reads what the step before left and stores that plus the step's partial. The three
  partials are functions of the step's three input blocks alone: the cross-entropy partial of the label, user and item
  blocks, and the two sums of squares of the user block and of the item block. Here the stores the run found are read back
  as those values, for any float type.
-/
import proofs.«137435_j7301444403233_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Steps

open Cert.KernelIdeal Cert.KernelIdeal.Gen

variable {F : FTy → Type} [FloatOps F]

theorem hz : (![0, 0] : Fin 2 → Nat) = fun _ => 0 := funext fun a => by fin_cases a <;> rfl

/-- A later step: accumulator 3 holding what the step before left ends at that plus the step's partial. -/
theorem later_3 (c : Dev nD) (i : grid0.Coords) (a1 : Memref sig .tc .vmem S10000x1 .f32) (h1 : a1.IsWhole)
    (a2 : Memref sig .tc .vmem S10000x32 .f32) (h2 : a2.IsWhole) (a3 : Memref sig .tc .vmem S10000x32 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc : ¬cond0_0 i)
    (x0 : Vec F S10000x1 .f32) (x1 x2 : Vec F S10000x32 .f32) (xo3 xo4 xo5 : Vec F S1x1 .f32) :
    out0_B_3 c i a1 h1 a2 h2 a3 h3 a4 h4 a5 h5 a6 h6 hc x0 x1 x2 xo3 xo4 xo5 = k0_pay1 (k0_pay9 x1 x2 x0) xo3 := by
  unfold out0_B_3
  rw [View.read_writes_eq_canon _ _ _ (cover0_B_3 c i a1 h1 a2 h2 a3 h3 a4 h4 a5 h5 a6 h6 hc x0 x1 x2 xo3 xo4 xo5)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S1x1) hz, View.ld_unit_zero (S := S10000x1) hz, View.ld_unit_zero (S := S10000x32) hz]

/-- A later step: accumulator 4 holding what the step before left ends at that plus the step's partial. -/
theorem later_4 (c : Dev nD) (i : grid0.Coords) (a1 : Memref sig .tc .vmem S10000x1 .f32) (h1 : a1.IsWhole)
    (a2 : Memref sig .tc .vmem S10000x32 .f32) (h2 : a2.IsWhole) (a3 : Memref sig .tc .vmem S10000x32 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc : ¬cond0_0 i)
    (x0 : Vec F S10000x1 .f32) (x1 x2 : Vec F S10000x32 .f32) (xo3 xo4 xo5 : Vec F S1x1 .f32) :
    out0_B_4 c i a1 h1 a2 h2 a3 h3 a4 h4 a5 h5 a6 h6 hc x0 x1 x2 xo3 xo4 xo5 = k0_pay2 (k0_pay10 x1) xo4 := by
  unfold out0_B_4
  rw [View.read_writes_eq_canon _ _ _ (cover0_B_4 c i a1 h1 a2 h2 a3 h3 a4 h4 a5 h5 a6 h6 hc x0 x1 x2 xo3 xo4 xo5)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S1x1) hz, View.ld_unit_zero (S := S10000x1) hz, View.ld_unit_zero (S := S10000x32) hz]

/-- A later step: accumulator 5 holding what the step before left ends at that plus the step's partial. -/
theorem later_5 (c : Dev nD) (i : grid0.Coords) (a1 : Memref sig .tc .vmem S10000x1 .f32) (h1 : a1.IsWhole)
    (a2 : Memref sig .tc .vmem S10000x32 .f32) (h2 : a2.IsWhole) (a3 : Memref sig .tc .vmem S10000x32 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc : ¬cond0_0 i)
    (x0 : Vec F S10000x1 .f32) (x1 x2 : Vec F S10000x32 .f32) (xo3 xo4 xo5 : Vec F S1x1 .f32) :
    out0_B_5 c i a1 h1 a2 h2 a3 h3 a4 h4 a5 h5 a6 h6 hc x0 x1 x2 xo3 xo4 xo5 = k0_pay3 (k0_pay11 x2) xo5 := by
  unfold out0_B_5
  rw [View.read_writes_eq_canon _ _ _ (cover0_B_5 c i a1 h1 a2 h2 a3 h3 a4 h4 a5 h5 a6 h6 hc x0 x1 x2 xo3 xo4 xo5)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S1x1) hz, View.ld_unit_zero (S := S10000x1) hz, View.ld_unit_zero (S := S10000x32) hz]

/-- The first step: accumulator 3 is set to zero, read back, and ends at that zero plus the step's partial. -/
theorem first_3 (c : Dev nD) (i : grid0.Coords) (a1 : Memref sig .tc .vmem S10000x1 .f32) (h1 : a1.IsWhole)
    (a2 : Memref sig .tc .vmem S10000x32 .f32) (h2 : a2.IsWhole) (a3 : Memref sig .tc .vmem S10000x32 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc : cond0_0 i)
    (x0 : Vec F S10000x1 .f32) (x1 x2 : Vec F S10000x32 .f32) :
    out0_A_3 c i a1 h1 a2 h2 a3 h3 a4 h4 a5 h5 a6 h6 hc x0 x1 x2 = k0_pay1 (k0_pay9 x1 x2 x0) (k0_pay4 (F := F)) := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread,
    View.ld_unit_zero (S := S1x1) hz, View.ld_unit_zero (S := S10000x1) hz, View.ld_unit_zero (S := S10000x32) hz]

/-- The first step: accumulator 4 is set to zero, read back, and ends at that zero plus the step's partial. -/
theorem first_4 (c : Dev nD) (i : grid0.Coords) (a1 : Memref sig .tc .vmem S10000x1 .f32) (h1 : a1.IsWhole)
    (a2 : Memref sig .tc .vmem S10000x32 .f32) (h2 : a2.IsWhole) (a3 : Memref sig .tc .vmem S10000x32 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc : cond0_0 i)
    (x0 : Vec F S10000x1 .f32) (x1 x2 : Vec F S10000x32 .f32) :
    out0_A_4 c i a1 h1 a2 h2 a3 h3 a4 h4 a5 h5 a6 h6 hc x0 x1 x2 = k0_pay2 (k0_pay10 x1) (k0_pay5 (F := F)) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread,
    View.ld_unit_zero (S := S1x1) hz, View.ld_unit_zero (S := S10000x1) hz, View.ld_unit_zero (S := S10000x32) hz]

/-- The first step: accumulator 5 is set to zero, read back, and ends at that zero plus the step's partial. -/
theorem first_5 (c : Dev nD) (i : grid0.Coords) (a1 : Memref sig .tc .vmem S10000x1 .f32) (h1 : a1.IsWhole)
    (a2 : Memref sig .tc .vmem S10000x32 .f32) (h2 : a2.IsWhole) (a3 : Memref sig .tc .vmem S10000x32 .f32) (h3 : a3.IsWhole)
    (a4 : Memref sig .tc .vmem S1x1 .f32) (h4 : a4.IsWhole) (a5 : Memref sig .tc .vmem S1x1 .f32) (h5 : a5.IsWhole)
    (a6 : Memref sig .tc .vmem S1x1 .f32) (h6 : a6.IsWhole) (hc : cond0_0 i)
    (x0 : Vec F S10000x1 .f32) (x1 x2 : Vec F S10000x32 .f32) :
    out0_A_5 c i a1 h1 a2 h2 a3 h3 a4 h4 a5 h5 a6 h6 hc x0 x1 x2 = k0_pay3 (k0_pay11 x2) (k0_pay6 (F := F)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread, h6.read_unread,
    View.ld_unit_zero (S := S1x1) hz, View.ld_unit_zero (S := S10000x1) hz, View.ld_unit_zero (S := S10000x32) hz]

end Cert.KernelIdeal.Steps

end
-- ==== Proof.LibColumn.lean ====
/-
  Two layout facts every keep-dimension row reduction meets: a vector of length a viewed as an [a, 1] column reads
  its entry at the row, and an [a, 1] column broadcast along the rows of an [a, b] matrix reads the column's entry
  at the row, whatever the column index.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Partials.lean ====
/-
  The three partials of one grid step, read as sums over the step's block.

  A step sees a block of 10 000 consecutive interactions: their labels as a [10000, 1] column and their user and item
  rows as two [10000, 32] arrays. Over the extended reals its cross-entropy partial is the sum over the block's rows of
  the cross-entropy term of the row's dot product and label, and its two other partials are the sums over rows and
  coordinates of the squared user entries and of the squared item entries. A lane sum keeps a trailing unit axis and a
  sublane sum of that column lands in a [1, 1] array: both re-shapings only rename the index. The zero the sums start
  from is the extended real 0 and is dropped.
-/
import proofs.«137435_j7301444403233_2_alg».proof.Proof.Gen.KernelIdeal.Skeleton
import proofs.«137435_j7301444403233_2_alg».proof.Proof.Spec
import proofs.«137435_j7301444403233_2_alg».proof.Proof.LibColumn
import Idealize.ShloMosaic.PureOps.Ideal.Laws
import Idealize.ShloMosaic.Lib.ValueIdx
import Idealize.ShloMosaic.Lib.Pipeline.Value

noncomputable section

namespace Cert.KernelIdeal.Partials

open Idealize.ShloMosaic Idealize.ShloMosaic.ValueIdx
open Cert.KernelIdeal Cert.KernelIdeal.Gen Cert.Loss
open scoped BigOperators

/-- The single-precision zero word is the extended real 0. -/
theorem zero_word : Scalar.ofBits (F := Ideal) .f32 0x00000000#32 = (0 : EReal) := Ideal.ofBits_zero_f32

/-- The one index of a [1, 1] array. -/
abbrev o11 : S1x1.Idx := ix2 (0 : Fin 1) (0 : Fin 1)

theorem all_one_S1 : ∀ b, S1.size b = 1 := fun b => by fin_cases b; rfl

/-- The stable cross-entropy expression, entry by entry: of a column L of logits and a column y of labels it is the
    cross-entropy term of L's entry and y's entry (the branch on "the difference differs from itself" is never taken). -/
theorem stable_apply (L y : FVec Ideal S10000x1 .f32) (i : S10000x1.Idx) :
    (subf (select (cmpf .one (subf (broadcast S10000x1 (Scalar.ofBits (F := Ideal) .f32 0x00000000#32)) L)
          (subf (broadcast S10000x1 (Scalar.ofBits (F := Ideal) .f32 0x00000000#32)) L))
        (addf (broadcast S10000x1 (Scalar.ofBits (F := Ideal) .f32 0x00000000#32)) L)
        (addf (maximumf (broadcast S10000x1 (Scalar.ofBits (F := Ideal) .f32 0x00000000#32)) L)
          (log1p (exp (subf (broadcast S10000x1 (Scalar.ofBits (F := Ideal) .f32 0x00000000#32))
            (absf (subf (broadcast S10000x1 (Scalar.ofBits (F := Ideal) .f32 0x00000000#32)) L)))))))
      (mulf L y)) i = term (L i) (y i) := by
  simp only [subf, select, cmpf, addf, maximumf, log1p, exp, absf, mulf, broadcast, zero_word, Ideal.cmpf_def,
    select_ne_self _ (Or.inl rfl), Ideal.subf_def, Ideal.addf_def, Ideal.mulf_def, Ideal.maximumf_def, Ideal.absf_def,
    Ideal.exp_def, Ideal.log1p_def, zero_sub, neg_neg, term]

/-- A lane sum of a [10000, 32] array, kept as a [10000, 1] column, read at row r: the sum over the 32 coordinates. -/
theorem lane_sum_apply (x : FVec Ideal S10000x32 .f32) (hφ : FKind.Formats .f32)
    (hacc : (0x00000000#32 : BitVec 32) = FKind.add.neutral .f32 hφ) (r : Fin 10000) (u : Fin 1) :
    shapeCast S10000x1 (multiReduction .add [1] S10000 x 0x00000000#32 reduces_S10000x32_S10000 hφ hacc) shapeCasts_S10000_S10000x1 (ix2 r u)
      = ∑ k : Fin 32, x (ix2 r k) := by
  refine (Cert.LibColumn.shapeCast_a_a1_apply _ shapeCasts_S10000_S10000x1 r u).trans ?_
  refine (Ideal.multiReduction_add_single x _ reduces_S10000x32_S10000 hφ hacc (ix1 r)).trans ?_
  refine Finset.sum_congr rfl fun k _ => ?_
  exact congrArg x (funext fun a => Fin.ext (by match a with | ⟨0, _⟩ => rfl | ⟨1, _⟩ => rfl))

/-- A sublane sum of a [10000, 1] column, kept as a [1, 1] array, read at its one index: the sum over the 10 000 rows. -/
theorem sublane_sum_apply (x : FVec Ideal S10000x1 .f32) (hφ : FKind.Formats .f32)
    (hacc : (0x00000000#32 : BitVec 32) = FKind.add.neutral .f32 hφ) :
    shapeCast S1x1 (multiReduction .add [0] S1 x 0x00000000#32 reduces_S10000x1_S1 hφ hacc) shapeCasts_S1_S1x1 o11
      = ∑ r : Fin 10000, x (ix2 r (0 : Fin 1)) := by
  refine (Cert.LibColumn.shapeCast_a_a1_apply _ shapeCasts_S1_S1x1 (0 : Fin 1) (0 : Fin 1)).trans ?_
  refine (Ideal.multiReduction_add_total x _ reduces_S10000x1_S1 all_one_S1 hφ hacc (ix1 (0 : Fin 1))).trans ?_
  refine (sum_idx2 _).trans ?_
  exact Finset.sum_congr rfl fun r _ => Fin.sum_univ_one _

/-- The cross-entropy partial of a step: the sum over the block's rows of the term of the row's dot product and label. -/
theorem bce_partial (x0 : Vec Ideal S10000x1 .f32) (x1 x2 : Vec Ideal S10000x32 .f32) :
    k0_pay9 (F := Ideal) x1 x2 x0 o11
      = ∑ r : Fin 10000, term (∑ k : Fin 32, x1 (ix2 r k) * x2 (ix2 r k)) (x0 (ix2 r (0 : Fin 1))) := by
  unfold k0_pay9 k0_pay7 k0_pay8
  refine (sublane_sum_apply _ _ _).trans ?_
  refine Finset.sum_congr rfl fun r _ => ?_
  refine (stable_apply _ _ (ix2 r (0 : Fin 1))).trans ?_
  refine congrArg₂ term ?_ ?_
  · refine (lane_sum_apply _ _ _ r (0 : Fin 1)).trans ?_
    refine Finset.sum_congr rfl fun k _ => ?_
    simp only [mulf, shapeCast_self, Ideal.mulf_def]
  · simp only [shapeCast_self]

/-- The user sum-of-squares partial of a step: the sum over rows and coordinates of the squared entries. -/
theorem squ_partial (x1 : Vec Ideal S10000x32 .f32) :
    k0_pay10 (F := Ideal) x1 o11 = ∑ r : Fin 10000, ∑ k : Fin 32, x1 (ix2 r k) * x1 (ix2 r k) := by
  unfold k0_pay10 k0_pay7
  refine (sublane_sum_apply _ _ _).trans ?_
  refine Finset.sum_congr rfl fun r _ => ?_
  refine (lane_sum_apply _ _ _ r (0 : Fin 1)).trans ?_
  refine Finset.sum_congr rfl fun k _ => ?_
  simp only [mulf, shapeCast_self, Ideal.mulf_def]

/-- The item sum-of-squares partial of a step. -/
theorem sqv_partial (x2 : Vec Ideal S10000x32 .f32) :
    k0_pay11 (F := Ideal) x2 o11 = ∑ r : Fin 10000, ∑ k : Fin 32, x2 (ix2 r k) * x2 (ix2 r k) := by
  unfold k0_pay11 k0_pay8
  refine (sublane_sum_apply _ _ _).trans ?_
  refine Finset.sum_congr rfl fun r _ => ?_
  refine (lane_sum_apply _ _ _ r (0 : Fin 1)).trans ?_
  refine Finset.sum_congr rfl fun k _ => ?_
  simp only [mulf, shapeCast_self, Ideal.mulf_def]

/-- An accumulator update read at the one index: what was held plus the partial. -/
theorem acc3_apply (p acc : Vec Ideal S1x1 .f32) : k0_pay1 (F := Ideal) p acc o11 = acc o11 + p o11 := by
  unfold k0_pay1; simp only [addf, shapeCast_self, Ideal.addf_def]
theorem acc4_apply (p acc : Vec Ideal S1x1 .f32) : k0_pay2 (F := Ideal) p acc o11 = acc o11 + p o11 := by
  unfold k0_pay2; simp only [addf, shapeCast_self, Ideal.addf_def]
theorem acc5_apply (p acc : Vec Ideal S1x1 .f32) : k0_pay3 (F := Ideal) p acc o11 = acc o11 + p o11 := by
  unfold k0_pay3; simp only [addf, shapeCast_self, Ideal.addf_def]

/-- The zero an accumulator is set to at the first step is the extended real 0. -/
theorem zero3_apply : k0_pay4 (F := Ideal) o11 = 0 := by unfold k0_pay4; simp only [broadcast, zero_word]
theorem zero4_apply : k0_pay5 (F := Ideal) o11 = 0 := by unfold k0_pay5; simp only [broadcast, zero_word]
theorem zero5_apply : k0_pay6 (F := Ideal) o11 = 0 := by unfold k0_pay6; simp only [broadcast, zero_word]

end Cert.KernelIdeal.Partials

end
-- ==== Proof.Chain.lean ====
/-
  The accumulators after each grid step.

  Each of the three accumulators starts, at the first step, from zero plus that step's partial, and every later step adds
  its own partial to what the step before left. So after step n an accumulator holds the partials of steps 0 … n added
  one after the other onto zero, and after the last of the 200 steps it holds the sum of all 200 partials.
-/
import proofs.«137435_j7301444403233_2_alg».proof.Proof.Steps
import proofs.«137435_j7301444403233_2_alg».proof.Proof.Partials

noncomputable section

open Idealize.ShloMosaic Idealize.ShloMosaic.TcCoe Idealize.SL.Sem
open Idealize.ShloMosaic.Pipeline (Dat)

namespace Cert.KernelIdeal.Chain

open Cert.KernelIdeal Cert.KernelIdeal.Gen Cert.Loss Cert.KernelIdeal.Partials Cert.KernelIdeal.Steps
open scoped BigOperators

variable (m : (ℓ : Loc nD τ sig) → Buf (Elt Ideal) ℓ)

/-- The cross-entropy partial of step n (0 past the grid). -/
def part3 (c : Dev nD) (n : Nat) : EReal :=
  if h : n < cfg0.N then k0_pay9 (F := Ideal) (iblk m c 1 ⟨n, h⟩) (iblk m c 2 ⟨n, h⟩) (iblk m c 0 ⟨n, h⟩) o11 else 0
/-- The user sum-of-squares partial of step n (0 past the grid). -/
def part4 (c : Dev nD) (n : Nat) : EReal :=
  if h : n < cfg0.N then k0_pay10 (F := Ideal) (iblk m c 1 ⟨n, h⟩) o11 else 0
/-- The item sum-of-squares partial of step n (0 past the grid). -/
def part5 (c : Dev nD) (n : Nat) : EReal :=
  if h : n < cfg0.N then k0_pay11 (F := Ideal) (iblk m c 2 ⟨n, h⟩) o11 else 0

theorem part3_at (c : Dev nD) (t : Fin cfg0.N) :
    part3 m c t.val = k0_pay9 (F := Ideal) (iblk m c 1 t) (iblk m c 2 t) (iblk m c 0 t) o11 := dif_pos t.isLt
theorem part4_at (c : Dev nD) (t : Fin cfg0.N) :
    part4 m c t.val = k0_pay10 (F := Ideal) (iblk m c 1 t) o11 := dif_pos t.isLt
theorem part5_at (c : Dev nD) (t : Fin cfg0.N) :
    part5 m c t.val = k0_pay11 (F := Ideal) (iblk m c 2 t) o11 := dif_pos t.isLt

/-- Accumulator 3 after step n holds the running total of the partials of steps 0 … n. -/
theorem acc3_eq (c : Dev nD) : ∀ (n : ℕ) (h : n < cfg0.N), (outsAt0 m c n h).1 o11 = running (part3 m c) n
  | 0, h => by
    rw [outsAt0_A m c ⟨0, h⟩ rfl]
    dsimp only
    refine (congrFun (first_3 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) _ (iblk m c 0 ⟨0, h⟩) (iblk m c 1 ⟨0, h⟩) (iblk m c 2 ⟨0, h⟩)) o11).trans ?_
    rw [acc3_apply, zero3_apply, ← part3_at m c ⟨0, h⟩]
    rfl
  | n + 1, h => by
    have hN : cfg0.N = 200 := N_0
    have h' : n + 1 < 200 := hN ▸ h
    have hB : ¬(⟨n + 1, h⟩ : Fin cfg0.N).val % 200 = 0 := by dsimp only; omega
    rw [outsAt0_B m c ⟨n + 1, h⟩ hB]
    dsimp only
    refine (congrFun (later_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) _ (iblk m c 0 ⟨n + 1, h⟩) (iblk m c 1 ⟨n + 1, h⟩) (iblk m c 2 ⟨n + 1, h⟩) _ _ _) o11).trans ?_
    rw [acc3_apply, ← part3_at m c ⟨n + 1, h⟩]
    show (outsAt0 m c n _).1 o11 + _ = running (part3 m c) n + part3 m c (n + 1)
    rw [acc3_eq c n]

/-- Accumulator 4 after step n holds the running total of the partials of steps 0 … n. -/
theorem acc4_eq (c : Dev nD) : ∀ (n : ℕ) (h : n < cfg0.N), (outsAt0 m c n h).2.1 o11 = running (part4 m c) n
  | 0, h => by
    rw [outsAt0_A m c ⟨0, h⟩ rfl]
    dsimp only
    refine (congrFun (first_4 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) _ (iblk m c 0 ⟨0, h⟩) (iblk m c 1 ⟨0, h⟩) (iblk m c 2 ⟨0, h⟩)) o11).trans ?_
    rw [acc4_apply, zero4_apply, ← part4_at m c ⟨0, h⟩]
    rfl
  | n + 1, h => by
    have hN : cfg0.N = 200 := N_0
    have h' : n + 1 < 200 := hN ▸ h
    have hB : ¬(⟨n + 1, h⟩ : Fin cfg0.N).val % 200 = 0 := by dsimp only; omega
    rw [outsAt0_B m c ⟨n + 1, h⟩ hB]
    dsimp only
    refine (congrFun (later_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) _ (iblk m c 0 ⟨n + 1, h⟩) (iblk m c 1 ⟨n + 1, h⟩) (iblk m c 2 ⟨n + 1, h⟩) _ _ _) o11).trans ?_
    rw [acc4_apply, ← part4_at m c ⟨n + 1, h⟩]
    show (outsAt0 m c n _).2.1 o11 + _ = running (part4 m c) n + part4 m c (n + 1)
    rw [acc4_eq c n]

/-- Accumulator 5 after step n holds the running total of the partials of steps 0 … n. -/
theorem acc5_eq (c : Dev nD) : ∀ (n : ℕ) (h : n < cfg0.N), (outsAt0 m c n h).2.2 o11 = running (part5 m c) n
  | 0, h => by
    rw [outsAt0_A m c ⟨0, h⟩ rfl]
    dsimp only
    refine (congrFun (first_5 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) _ (iblk m c 0 ⟨0, h⟩) (iblk m c 1 ⟨0, h⟩) (iblk m c 2 ⟨0, h⟩)) o11).trans ?_
    rw [acc5_apply, zero5_apply, ← part5_at m c ⟨0, h⟩]
    rfl
  | n + 1, h => by
    have hN : cfg0.N = 200 := N_0
    have h' : n + 1 < 200 := hN ▸ h
    have hB : ¬(⟨n + 1, h⟩ : Fin cfg0.N).val % 200 = 0 := by dsimp only; omega
    rw [outsAt0_B m c ⟨n + 1, h⟩ hB]
    dsimp only
    refine (congrFun (later_5 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) _ (iblk m c 0 ⟨n + 1, h⟩) (iblk m c 1 ⟨n + 1, h⟩) (iblk m c 2 ⟨n + 1, h⟩) _ _ _) o11).trans ?_
    rw [acc5_apply, ← part5_at m c ⟨n + 1, h⟩]
    show (outsAt0 m c n _).2.2 o11 + _ = running (part5 m c) n + part5 m c (n + 1)
    rw [acc5_eq c n]

end Cert.KernelIdeal.Chain

end
-- ==== Proof.Blocks.lean ====
/-
  What a grid step's three input blocks hold.

  Before the kernel runs, the host gathers the user and item rows of all N interactions into two [N, 32] arrays and views
  the N labels as an [N, 1] column; these are the same gathers the reference performs. Step t of the grid sees rows
  10000 · t … 10000 · t + 9999 of each: entry (r, k) of a step's block is entry (10000 · t + r, k) of the whole array.
-/
import proofs.«137435_j7301444403233_2_alg».proof.Proof.Gen.KernelIdeal.Frame
import proofs.«137435_j7301444403233_2_alg».proof.Proof.Gen.ReferenceIdeal.Read
import proofs.«137435_j7301444403233_2_alg».proof.Proof.Spec
import proofs.«137435_j7301444403233_2_alg».proof.Proof.LibColumn
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.Loss Idealize.ShloMosaic.ValueIdx

variable (m : (ℓ : Loc nD τ sig) → Buf (Elt Ideal) ℓ)

/-- Each input window's block index at step t is (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-- The gathered user rows, as the kernel's launch finds them: the reference's gather of the same arguments. -/
theorem V_users (c : Dev nD) :
    (V m c main_v6 : S2000000x32.Idx → Elt Ideal .f32)
      = Cert.ReferenceIdeal.Read.val_main_v6 (F := Ideal) (m ((c : Thread nD τ).loc main_arg0)) (m ((c : Thread nD τ).loc main_arg3)) := by
  show StableHlo.after hostOps0 (fun b => m (c, b)) (Proc.devRef .tc main_v6) = _
  after_results
  rfl

/-- The gathered item rows likewise. -/
theorem V_items (c : Dev nD) :
    (V m c main_v13 : S2000000x32.Idx → Elt Ideal .f32)
      = Cert.ReferenceIdeal.Read.val_main_v13 (F := Ideal) (m ((c : Thread nD τ).loc main_arg1)) (m ((c : Thread nD τ).loc main_arg4)) := by
  show StableHlo.after hostOps0 (fun b => m (c, b)) (Proc.devRef .tc main_v13) = _
  after_results
  rfl

/-- The labels as the launch finds them: the length-N vector viewed as an [N, 1] column. -/
theorem V_labels (c : Dev nD) :
    (V m c main_v14 : S2000000x1.Idx → Elt Ideal .f32)
      = shapeCast S2000000x1 (m ((c : Thread nD τ).loc main_arg2)) shapeCasts_S2000000_S2000000x1 := by
  show StableHlo.after hostOps0 (fun b => m (c, b)) (Proc.devRef .tc main_v14) = _
  after_results
  rfl

/-- Entry (r, k) of step t's user block is entry (10000 · t + r, k) of the gathered user rows. -/
theorem users_apply (c : Dev nD) (t : Fin cfg0.N) (r : Fin 10000) (k : Fin 32) (n : Fin 2000000)
    (hn : n.val = t.val * 10000 + r.val) :
    (iblk m c 1 t : Vec Ideal S10000x32 .f32) (ix2 r k) = (V m c main_v6 : S2000000x32.Idx → Elt Ideal .f32) (ix2 n k) := by
  have hi := idx_facts t
  unfold iblk
  rw [View.read_apply]
  show V m c main_v6 _ = V m c main_v6 _
  refine congrArg (V m c main_v6) ?_
  funext a
  apply Fin.ext
  match a with
  | ⟨0, _⟩ => show win0_1.index t 0 * 10000 + 1 * r.val = n.val; rw [hi.2.2.1, hn]; omega
  | ⟨1, _⟩ => show win0_1.index t 1 * 32 + 1 * k.val = k.val; rw [hi.2.2.2.1]; omega

/-- Entry (r, k) of step t's item block is entry (10000 · t + r, k) of the gathered item rows. -/
theorem items_apply (c : Dev nD) (t : Fin cfg0.N) (r : Fin 10000) (k : Fin 32) (n : Fin 2000000)
    (hn : n.val = t.val * 10000 + r.val) :
    (iblk m c 2 t : Vec Ideal S10000x32 .f32) (ix2 r k) = (V m c main_v13 : S2000000x32.Idx → Elt Ideal .f32) (ix2 n k) := by
  have hi := idx_facts t
  unfold iblk
  rw [View.read_apply]
  show V m c main_v13 _ = V m c main_v13 _
  refine congrArg (V m c main_v13) ?_
  funext a
  apply Fin.ext
  match a with
  | ⟨0, _⟩ => show win0_2.index t 0 * 10000 + 1 * r.val = n.val; rw [hi.2.2.2.2.1, hn]; omega
  | ⟨1, _⟩ => show win0_2.index t 1 * 32 + 1 * k.val = k.val; rw [hi.2.2.2.2.2]; omega

/-- Entry (r, 0) of step t's label block is label 10000 · t + r. -/
theorem labels_apply (c : Dev nD) (t : Fin cfg0.N) (r : Fin 10000) (n : Fin 2000000)
    (hn : n.val = t.val * 10000 + r.val) :
    (iblk m c 0 t : Vec Ideal S10000x1 .f32) (ix2 r (0 : Fin 1)) = m ((c : Thread nD τ).loc main_arg2) (ix1 n) := by
  have hi := idx_facts t
  refine Eq.trans (b := (V m c main_v14 : S2000000x1.Idx → Elt Ideal .f32) (ix2 n (0 : Fin 1))) ?_ ?_
  · unfold iblk
    rw [View.read_apply]
    show V m c main_v14 _ = V m c main_v14 _
    refine congrArg (V m c main_v14) ?_
    funext a
    apply Fin.ext
    match a with
    | ⟨0, _⟩ => show win0_0.index t 0 * 10000 + 1 * r.val = n.val; rw [hi.1, hn]; omega
    | ⟨1, _⟩ => show win0_0.index t 1 * 1 + 1 * 0 = 0; rw [hi.2.1]
  · rw [V_labels]
    exact Cert.LibColumn.shapeCast_a_a1_apply _ shapeCasts_S2000000_S2000000x1 n (0 : Fin 1)

end Cert.KernelIdeal.Blocks

end
-- ==== Proof.Totals.lean ====
/-
  The three accumulated sums are the loss's three sums.

  After the last step the cross-entropy accumulator holds the sum over the 200 steps of the steps' partials. A step's
  partial is the sum over its block's 10 000 rows; row r of step t is interaction 10000 · t + r, whose user row, item row
  and label the block holds. So the accumulated sum runs over every interaction once: it is the summed cross-entropy of
  the gathered arrays and the labels. The two sums of squares are accumulated the same way.
-/
import proofs.«137435_j7301444403233_2_alg».proof.Proof.Chain
import proofs.«137435_j7301444403233_2_alg».proof.Proof.Blocks

noncomputable section

open Idealize.ShloMosaic Idealize.ShloMosaic.TcCoe Idealize.SL.Sem

namespace Cert.KernelIdeal.Totals

open Cert.KernelIdeal Cert.KernelIdeal.Gen Cert.Loss Cert.KernelIdeal.Partials Cert.KernelIdeal.Chain Cert.KernelIdeal.Blocks
open Idealize.ShloMosaic.ValueIdx
open scoped BigOperators

variable (m : (ℓ : Loc nD τ sig) → Buf (Elt Ideal) ℓ)

/-- The gathered user rows of the launch's arguments. -/
abbrev users (c : Dev nD) : (⟨2, ![2000000, 32]⟩ : Shape).Idx → EReal :=
  Cert.ReferenceIdeal.Read.val_main_v6 (F := Ideal) (m ((c : Thread nD τ).loc main_arg0)) (m ((c : Thread nD τ).loc main_arg3))
/-- The gathered item rows of the launch's arguments. -/
abbrev items (c : Dev nD) : (⟨2, ![2000000, 32]⟩ : Shape).Idx → EReal :=
  Cert.ReferenceIdeal.Read.val_main_v13 (F := Ideal) (m ((c : Thread nD τ).loc main_arg1)) (m ((c : Thread nD τ).loc main_arg4))
/-- The labels of the launch's arguments. -/
abbrev labels (c : Dev nD) : (⟨1, ![2000000]⟩ : Shape).Idx → EReal := m ((c : Thread nD τ).loc main_arg2)

theorem lt_N (t : Fin 200) : t.val < cfg0.N := by rw [show cfg0.N = 200 from N_0]; exact t.isLt

/-- The sum of the 200 cross-entropy partials is the summed cross-entropy. -/
theorem bce_total (c : Dev nD) : ∑ t : Fin 200, part3 m c t.val = bce (users m c) (items m c) (labels m c) := by
  unfold bce
  rw [sum_rows]
  refine Finset.sum_congr rfl fun t _ => ?_
  refine (part3_at m c ⟨t.val, lt_N t⟩).trans ?_
  refine (bce_partial _ _ _).trans ?_
  refine Finset.sum_congr rfl fun r _ => ?_
  refine congrArg₂ term ?_ ?_
  · unfold logit
    refine Finset.sum_congr rfl fun k _ => ?_
    exact congrArg₂ (· * ·)
      ((users_apply m c ⟨t.val, lt_N t⟩ r k (row t r) rfl).trans (congrFun (V_users m c) _))
      ((items_apply m c ⟨t.val, lt_N t⟩ r k (row t r) rfl).trans (congrFun (V_items m c) _))
  · exact labels_apply m c ⟨t.val, lt_N t⟩ r (row t r) rfl

/-- The sum of the 200 user sum-of-squares partials is the sum of the squares of every gathered user entry. -/
theorem squ_total (c : Dev nD) : ∑ t : Fin 200, part4 m c t.val = Cert.Loss.sq (users m c) := by
  unfold Cert.Loss.sq
  rw [sum_rows]
  refine Finset.sum_congr rfl fun t _ => ?_
  refine (part4_at m c ⟨t.val, lt_N t⟩).trans ?_
  refine (squ_partial _).trans ?_
  refine Finset.sum_congr rfl fun r _ => Finset.sum_congr rfl fun k _ => ?_
  exact congrArg₂ (· * ·)
    ((users_apply m c ⟨t.val, lt_N t⟩ r k (row t r) rfl).trans (congrFun (V_users m c) _))
    ((users_apply m c ⟨t.val, lt_N t⟩ r k (row t r) rfl).trans (congrFun (V_users m c) _))

/-- The sum of the 200 item sum-of-squares partials is the sum of the squares of every gathered item entry. -/
theorem sqv_total (c : Dev nD) : ∑ t : Fin 200, part5 m c t.val = Cert.Loss.sq (items m c) := by
  unfold Cert.Loss.sq
  rw [sum_rows]
  refine Finset.sum_congr rfl fun t _ => ?_
  refine (part5_at m c ⟨t.val, lt_N t⟩).trans ?_
  refine (sqv_partial _).trans ?_
  refine Finset.sum_congr rfl fun r _ => Finset.sum_congr rfl fun k _ => ?_
  exact congrArg₂ (· * ·)
    ((items_apply m c ⟨t.val, lt_N t⟩ r k (row t r) rfl).trans (congrFun (V_items m c) _))
    ((items_apply m c ⟨t.val, lt_N t⟩ r k (row t r) rfl).trans (congrFun (V_items m c) _))

/-- The last grid step. -/
abbrev last : Fin cfg0.N := ⟨199, by rw [show cfg0.N = 200 from N_0]; decide⟩

/-- A [1, 1] array has one index. -/
theorem one_idx (j : S1x1.Idx) : j = o11 := by
  have h0 : (j 0 : Nat) < 1 := (j 0).isLt
  have h1 : (j 1 : Nat) < 1 := (j 1).isLt
  funext a
  apply Fin.ext
  match a with
  | ⟨0, _⟩ => show (j 0 : Nat) = 0; omega
  | ⟨1, _⟩ => show (j 1 : Nat) = 0; omega

/-- After the last step the three accumulators hold the three sums of the loss. -/
theorem acc3_last (c : Dev nD) :
    (outsAt0 m c last.val last.isLt).1 = fun _ => bce (users m c) (items m c) (labels m c) :=
  funext fun j => (congrArg _ (one_idx j)).trans
    ((acc3_eq m c last.val last.isLt).trans ((running_last _).trans (bce_total m c)))
theorem acc4_last (c : Dev nD) :
    (outsAt0 m c last.val last.isLt).2.1 = fun _ => Cert.Loss.sq (users m c) :=
  funext fun j => (congrArg _ (one_idx j)).trans
    ((acc4_eq m c last.val last.isLt).trans ((running_last _).trans (squ_total m c)))
theorem acc5_last (c : Dev nD) :
    (outsAt0 m c last.val last.isLt).2.2 = fun _ => Cert.Loss.sq (items m c) :=
  funext fun j => (congrArg _ (one_idx j)).trans
    ((acc5_eq m c last.val last.isLt).trans ((running_last _).trans (sqv_total m c)))

end Cert.KernelIdeal.Totals

end
-- ==== Proof.KernelLoss.lean ====
/-
  The kernel's program computes the loss.

  Each accumulator's one block is its whole [1, 1] array and is written back once, after the last grid step; so after
  the kernel the three arrays hold the summed cross-entropy and the two sums of squares of the gathered arrays. The host
  lines after the kernel read the three [1, 1] arrays as scalars, take the square roots of the two sums of squares, weight
  them, and add them to the cross-entropy: the loss. The launch's five arguments are left as they were.
-/
import proofs.«137435_j7301444403233_2_alg».proof.Proof.Totals
import Idealize.ShloMosaic.Lib.StableHlo.Run

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.Loss Cert.KernelIdeal.Partials Cert.KernelIdeal.Totals
open Idealize.ShloMosaic.ValueIdx

variable (m : (ℓ : Loc nD τ sig) → Buf (Elt Ideal) ℓ) (ρ : Dev nD → PrngReg)

/-- Accumulator 3's block is its whole [1, 1] array: written back at the last step, it reads back unchanged. -/
theorem cut_read3 (c : Dev nD) (R : Buf (Elt Ideal) ((c : Thread nD τ).loc main_v15_0)) :
    (cfg0.win 3).cut (grid0.coords last) R = ((cfg0.win 3).blk last).view.read (Elt Ideal) R := by
  have hz' : (fun a => win0_3.index last a * main_v15_0.ty.shape.size a) = fun _ => 0 := funext fun a => by fin_cases a <;> decide
  exact (Memref.read_access_unit_zero (Elt Ideal) main_v15_0 hz' (fun a => by rw [congrFun hz' a]; simp) R).symm

/-- The one write-back of accumulator 3, at the last step, writes bce (users m c) (items m c) (labels m c). -/
theorem flushed3 (c : Dev nD) (t : Fin cfg0.N) (hf : (cfg0.win 3).flush t = true) :
    (dats m 0 c).flushed 3 t = ((cfg0.win 3).blk t).view.read (Elt Ideal) (fun _ => bce (users m c) (items m c) (labels m c)) := by
  have hN : cfg0.N = 200 := N_0
  have h199 : t.val = 199 := by have := (flush0_3 t).mp hf; have := t.isLt; omega
  obtain rfl : t = last := Fin.ext h199
  exact (congrArg ((cfg0.win 3).cut (grid0.coords last)) (after0_3 m c last)).trans
    ((cut_read3 c _).trans (congrArg (((cfg0.win 3).blk last).view.read (Elt Ideal)) (acc3_last m c)))

/-- The last step's block covers the whole [1, 1] array. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  refine ⟨last, (flush0_3 last).mpr rfl, ?_⟩
  show i ∈ ((View.whole main_v15_0).slice (win0_3.rect last)).set
  rw [View.set_slice_whole, Rect.mem_set_unit]
  intro a
  have h0 : (i 0 : Nat) < 1 := (i 0).isLt
  have h1 : (i 1 : Nat) < 1 := (i 1).isLt
  match a with
  | ⟨0, _⟩ =>
    show win0_3.index last 0 * win0_3.size 0 ≤ (i 0 : Nat) ∧ (i 0 : Nat) < win0_3.index last 0 * win0_3.size 0 + win0_3.xsize (grid0.coords last) 0
    rw [show win0_3.index last 0 * win0_3.size 0 = 0 from by decide +kernel, show win0_3.xsize (grid0.coords last) 0 = 1 from by decide +kernel]; omega
  | ⟨1, _⟩ =>
    show win0_3.index last 1 * win0_3.size 1 ≤ (i 1 : Nat) ∧ (i 1 : Nat) < win0_3.index last 1 * win0_3.size 1 + win0_3.xsize (grid0.coords last) 1
    rw [show win0_3.index last 1 * win0_3.size 1 = 0 from by decide +kernel, show win0_3.xsize (grid0.coords last) 1 = 1 from by decide +kernel]; omega

/-- So after the kernel accumulator 3's array holds bce (users m c) (items m c) (labels m c). -/
theorem final3 (c : Dev nD) : (dats m 0 c).arrAt 3 cfg0.N = fun _ => bce (users m c) (items m c) (labels m c) :=
  Dat.arrAt_eq_of_cover (dat := dats m 0 c) 3 (fun _ => bce (users m c) (items m c) (labels m c)) (flushed3 m c) (cover3 c)

/-- Accumulator 4's block is its whole [1, 1] array: written back at the last step, it reads back unchanged. -/
theorem cut_read4 (c : Dev nD) (R : Buf (Elt Ideal) ((c : Thread nD τ).loc main_v15_1)) :
    (cfg0.win 4).cut (grid0.coords last) R = ((cfg0.win 4).blk last).view.read (Elt Ideal) R := by
  have hz' : (fun a => win0_4.index last a * main_v15_1.ty.shape.size a) = fun _ => 0 := funext fun a => by fin_cases a <;> decide
  exact (Memref.read_access_unit_zero (Elt Ideal) main_v15_1 hz' (fun a => by rw [congrFun hz' a]; simp) R).symm

/-- The one write-back of accumulator 4, at the last step, writes Cert.Loss.sq (users m c). -/
theorem flushed4 (c : Dev nD) (t : Fin cfg0.N) (hf : (cfg0.win 4).flush t = true) :
    (dats m 0 c).flushed 4 t = ((cfg0.win 4).blk t).view.read (Elt Ideal) (fun _ => Cert.Loss.sq (users m c)) := by
  have hN : cfg0.N = 200 := N_0
  have h199 : t.val = 199 := by have := (flush0_4 t).mp hf; have := t.isLt; omega
  obtain rfl : t = last := Fin.ext h199
  exact (congrArg ((cfg0.win 4).cut (grid0.coords last)) (after0_4 m c last)).trans
    ((cut_read4 c _).trans (congrArg (((cfg0.win 4).blk last).view.read (Elt Ideal)) (acc4_last m c)))

/-- The last step's block covers the whole [1, 1] array. -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  refine ⟨last, (flush0_4 last).mpr rfl, ?_⟩
  show i ∈ ((View.whole main_v15_1).slice (win0_4.rect last)).set
  rw [View.set_slice_whole, Rect.mem_set_unit]
  intro a
  have h0 : (i 0 : Nat) < 1 := (i 0).isLt
  have h1 : (i 1 : Nat) < 1 := (i 1).isLt
  match a with
  | ⟨0, _⟩ =>
    show win0_4.index last 0 * win0_4.size 0 ≤ (i 0 : Nat) ∧ (i 0 : Nat) < win0_4.index last 0 * win0_4.size 0 + win0_4.xsize (grid0.coords last) 0
    rw [show win0_4.index last 0 * win0_4.size 0 = 0 from by decide +kernel, show win0_4.xsize (grid0.coords last) 0 = 1 from by decide +kernel]; omega
  | ⟨1, _⟩ =>
    show win0_4.index last 1 * win0_4.size 1 ≤ (i 1 : Nat) ∧ (i 1 : Nat) < win0_4.index last 1 * win0_4.size 1 + win0_4.xsize (grid0.coords last) 1
    rw [show win0_4.index last 1 * win0_4.size 1 = 0 from by decide +kernel, show win0_4.xsize (grid0.coords last) 1 = 1 from by decide +kernel]; omega

/-- So after the kernel accumulator 4's array holds Cert.Loss.sq (users m c). -/
theorem final4 (c : Dev nD) : (dats m 0 c).arrAt 4 cfg0.N = fun _ => Cert.Loss.sq (users m c) :=
  Dat.arrAt_eq_of_cover (dat := dats m 0 c) 4 (fun _ => Cert.Loss.sq (users m c)) (flushed4 m c) (cover4 c)

/-- Accumulator 5's block is its whole [1, 1] array: written back at the last step, it reads back unchanged. -/
theorem cut_read5 (c : Dev nD) (R : Buf (Elt Ideal) ((c : Thread nD τ).loc main_v15_2)) :
    (cfg0.win 5).cut (grid0.coords last) R = ((cfg0.win 5).blk last).view.read (Elt Ideal) R := by
  have hz' : (fun a => win0_5.index last a * main_v15_2.ty.shape.size a) = fun _ => 0 := funext fun a => by fin_cases a <;> decide
  exact (Memref.read_access_unit_zero (Elt Ideal) main_v15_2 hz' (fun a => by rw [congrFun hz' a]; simp) R).symm

/-- The one write-back of accumulator 5, at the last step, writes Cert.Loss.sq (items m c). -/
theorem flushed5 (c : Dev nD) (t : Fin cfg0.N) (hf : (cfg0.win 5).flush t = true) :
    (dats m 0 c).flushed 5 t = ((cfg0.win 5).blk t).view.read (Elt Ideal) (fun _ => Cert.Loss.sq (items m c)) := by
  have hN : cfg0.N = 200 := N_0
  have h199 : t.val = 199 := by have := (flush0_5 t).mp hf; have := t.isLt; omega
  obtain rfl : t = last := Fin.ext h199
  exact (congrArg ((cfg0.win 5).cut (grid0.coords last)) (after0_5 m c last)).trans
    ((cut_read5 c _).trans (congrArg (((cfg0.win 5).blk last).view.read (Elt Ideal)) (acc5_last m c)))

/-- The last step's block covers the whole [1, 1] array. -/
theorem cover5 (c : Dev nD) (i : ((cfg0.win 5).arr.view.loc (c.tc : Thread nD τ)).2.ty.Idx) :
    ∃ t : Fin cfg0.N, (cfg0.win 5).flush t = true ∧ i ∈ ((cfg0.win 5).blk t).view.set := by
  refine ⟨last, (flush0_5 last).mpr rfl, ?_⟩
  show i ∈ ((View.whole main_v15_2).slice (win0_5.rect last)).set
  rw [View.set_slice_whole, Rect.mem_set_unit]
  intro a
  have h0 : (i 0 : Nat) < 1 := (i 0).isLt
  have h1 : (i 1 : Nat) < 1 := (i 1).isLt
  match a with
  | ⟨0, _⟩ =>
    show win0_5.index last 0 * win0_5.size 0 ≤ (i 0 : Nat) ∧ (i 0 : Nat) < win0_5.index last 0 * win0_5.size 0 + win0_5.xsize (grid0.coords last) 0
    rw [show win0_5.index last 0 * win0_5.size 0 = 0 from by decide +kernel, show win0_5.xsize (grid0.coords last) 0 = 1 from by decide +kernel]; omega
  | ⟨1, _⟩ =>
    show win0_5.index last 1 * win0_5.size 1 ≤ (i 1 : Nat) ∧ (i 1 : Nat) < win0_5.index last 1 * win0_5.size 1 + win0_5.xsize (grid0.coords last) 1
    rw [show win0_5.index last 1 * win0_5.size 1 = 0 from by decide +kernel, show win0_5.xsize (grid0.coords last) 1 = 1 from by decide +kernel]; omega

/-- So after the kernel accumulator 5's array holds Cert.Loss.sq (items m c). -/
theorem final5 (c : Dev nD) : (dats m 0 c).arrAt 5 cfg0.N = fun _ => Cert.Loss.sq (items m c) :=
  Dat.arrAt_eq_of_cover (dat := dats m 0 c) 5 (fun _ => Cert.Loss.sq (items m c)) (flushed5 m c) (cover5 c)

/-- The host lines after the kernel: the three [1, 1] arrays read as scalars, the two square roots weighted and added. -/
def tail (b u v : S1x1.Idx → EReal) : S_.Idx → EReal :=
  addf (addf (shapeCast S_ b shapeCasts_S1x1_S_)
      (mulf (constant (F := Ideal) S_ .f32 0x3DCCCCCD#32) (Host.sqrt (F := Ideal) (shapeCast S_ u shapeCasts_S1x1_S_))))
    (mulf (constant (F := Ideal) S_ .f32 0x3DCCCCCD#32) (Host.sqrt (F := Ideal) (shapeCast S_ v shapeCasts_S1x1_S_)))

set_option maxHeartbeats 1600000 in
/-- Whatever the three accumulator arrays hold when the kernel is done, the program's result is the tail of them. -/
theorem tail_of (c : Dev nD) (V₀ : Valuation τ sig (Elt Ideal))
    (A : (w : Fin 6) → Buf (Elt Ideal) (((cfgs 0).spec w).arr.view.loc (c.tc : Thread nD τ))) :
    StableHlo.after hostOps1 (Pipeline.withArrays (cfgs 0).spec c V₀ A) (Proc.devRef .tc main_v24)
      = tail (A 3) (A 4) (A 5) := by
  after_results
  have e3 : Pipeline.withArrays (cfgs 0).spec c V₀ A (Proc.devRef .tc main_v15_0) = A 3 :=
    Pipeline.withArrays_arr spec0 launch0.win.arr_inj c V₀ A 3
  have e4 : Pipeline.withArrays (cfgs 0).spec c V₀ A (Proc.devRef .tc main_v15_1) = A 4 :=
    Pipeline.withArrays_arr spec0 launch0.win.arr_inj c V₀ A 4
  have e5 : Pipeline.withArrays (cfgs 0).spec c V₀ A (Proc.devRef .tc main_v15_2) = A 5 :=
    Pipeline.withArrays_arr spec0 launch0.win.arr_inj c V₀ A 5
  rw [e3, e4, e5]
  rfl

/-- The tail of three constant [1, 1] arrays, read at the scalar's one index. -/
theorem tail_const (b u v : EReal) (i : S_.Idx) :
    tail (fun _ => b) (fun _ => u) (fun _ => v) i = b + weight * Ideal.sqrt u + weight * Ideal.sqrt v := by
  unfold tail
  simp only [addf, mulf, Host.sqrt, constant, shapeCast, Ideal.addf_def, Ideal.mulf_def, Ideal.hostUnary_sqrt_def, Ideal.ofBits_def]

/-- The program's result is the loss of the gathered arrays and the labels. -/
theorem result_eq (c : Dev nD) :
    Pipeline.afterTail₀ cfgs (dats m) 0 (V0 m) [hostOps1] c main_v24
      = fun _ => loss (users m c) (items m c) (labels m c) := by
  unfold Pipeline.afterTail₀
  refine (tail_of c (V0 m c) (fun w => (dats m 0 c).arrAt w (cfgs 0).N)).trans ?_
  show tail ((dats m 0 c).arrAt 3 cfg0.N) ((dats m 0 c).arrAt 4 cfg0.N) ((dats m 0 c).arrAt 5 cfg0.N) = _
  rw [final3, final4, final5]
  funext i
  exact tail_const (bce (users m c) (items m c) (labels m c)) (Cert.Loss.sq (users m c)) (Cert.Loss.sq (items m c)) i

/-- Every weakly fair execution of the kernel's program ends with its result at the loss and its arguments unchanged. -/
theorem run : θ_run defs (onTc (τ := τ) (main (F := Ideal))) ⟨m, fun _ => 0, ρ⟩ fun r => ∀ c : Dev nD,
      r.2.mem ((c.tc : Thread nD τ).loc main_v24) = (fun _ => loss (users m c) (items m c) (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v24 (Pipeline.mem_restRefs_of main_v24 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Final

end
-- ==== Proof.lean ====
/-
  A kernel and its reference compute the same loss over the extended reals.

  Both programs gather, for N = 2 000 000 interactions, the user and item embedding rows (32 coordinates each) and
  compute the summed binary cross-entropy with logits of the rows' dot products against the labels, plus 0.1 times the
  Frobenius norms of the two gathered arrays. The reference sums over all interactions at once. The kernel walks a grid
  of 200 steps of 10 000 interactions, keeps three one-entry accumulators that are set to zero at the first step and
  receive each step's three partial sums, and leaves the square roots, the weights and the final additions to the host.
  Over the extended reals addition is commutative and associative with no exception, so a sum taken in 200 blocks, each
  added in turn onto zero, is the sum; the per-interaction term is the same expression in both programs (the kernel
  writes 0 − x where the reference writes −x, and both test "x differs from itself", which never holds here); and the
  gathers and the host's last lines are the same operations in both. No finiteness of the inputs is used.

  The three frame claims: the two kernel programs' are their launch-and-body run, the reference's is its straight-line run
  with the result dropped. The idealized kernel is the printed kernel read over the extended reals with nothing rewritten.
-/
import proofs.«137435_j7301444403233_2_alg».proof.Defs
import proofs.«137435_j7301444403233_2_alg».proof.Proof.Gen.Kernel
import proofs.«137435_j7301444403233_2_alg».proof.Proof.Gen.Kernel.Skeleton
import proofs.«137435_j7301444403233_2_alg».proof.Proof.Gen.Kernel.Launch
import proofs.«137435_j7301444403233_2_alg».proof.Proof.Gen.Kernel.Points
import proofs.«137435_j7301444403233_2_alg».proof.Proof.Gen.Kernel.Frame
import proofs.«137435_j7301444403233_2_alg».proof.Proof.Gen.KernelIdeal
import proofs.«137435_j7301444403233_2_alg».proof.Proof.Gen.KernelIdeal.Skeleton
import proofs.«137435_j7301444403233_2_alg».proof.Proof.Gen.KernelIdeal.Launch
import proofs.«137435_j7301444403233_2_alg».proof.Proof.Gen.KernelIdeal.Points
import proofs.«137435_j7301444403233_2_alg».proof.Proof.Gen.KernelIdeal.Frame
import proofs.«137435_j7301444403233_2_alg».proof.Proof.Gen.ReferenceIdeal
import proofs.«137435_j7301444403233_2_alg».proof.Proof.Gen.Pre_finite_inputs
import proofs.«137435_j7301444403233_2_alg».proof.Proof.Gen.ReferenceIdeal.Run
import proofs.«137435_j7301444403233_2_alg».proof.Proof.Gen.ReferenceIdeal.Read
import proofs.«137435_j7301444403233_2_alg».proof.Proof.RefLoss
import proofs.«137435_j7301444403233_2_alg».proof.Proof.KernelLoss
import Idealize.ShloMosaic.Adequacy
import Idealize.ShloMosaic.Init

noncomputable section

namespace Cert.Proof

open Idealize.ShloMosaic Idealize.SL.Sem Cert.Kernel

namespace Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the printed kernel and its idealization. -/
theorem preserves : Cert.preserves_Kernel_KernelIdeal := trivial

/-- From memories that agree on the five arguments, the kernel's program ends with its result at the loss of the gathered
    arrays and the labels, and so does the reference. -/
theorem algebraic : Cert.algebraic_KernelIdeal_ReferenceIdeal := by
  intro m ρ m' ρ' _ hagree
  refine ⟨fun c => fun _ => Cert.Loss.loss (Cert.KernelIdeal.Totals.users m c) (Cert.KernelIdeal.Totals.items m c)
    (Cert.KernelIdeal.Totals.labels m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq]
  funext i
  rw [Cert.Loss.Ref.result_eq, (hagree c).1, (hagree c).2.1, (hagree c).2.2.1, (hagree c).2.2.2.1, (hagree c).2.2.2.2]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
